-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩

abbrev nBuf : Space → Nat
  | .hbm => 39
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S128x128, .f32⟩
  | .hbm, ⟨38, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_cst : Ref sig .tc := ⟨.hbm, 47, rfl⟩
abbrev main_call1_v0 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  One message-passing layer over 100000 nodes with 128 features, read on the extended reals.

  For node features `x`, aggregated neighbour features `agg`, two weight matrices given already transposed
  (`wsT`, `wnT` : input feature × output feature) and two bias rows, the layer's value at node `r`, output
  feature `c` is

      max ( (∑ₖ x[r,k]·wsT[k,c] + bs[c]) + (∑ₖ agg[r,k]·wnT[k,c] + bn[c]) , 0 ).

  The two programs add the same four terms in two groupings — left to right, or in two pairs —, which
  associativity of addition joins. Addition on the extended reals is associative at every value, the infinities
  included, so nothing here asks the entries to be finite.
-/
import Idealize.ShloMosaic.PureOps.Ideal
import Idealize.ShloMosaic.Lib.ValueIdx

noncomputable section

namespace Cert.Layer

open Idealize.ShloMosaic Idealize.ShloMosaic.ValueIdx

/-- Node features, and aggregated neighbour features: 100000 nodes, 128 features each. -/
abbrev SNodes : Shape := ⟨2, ![100000, 128]⟩
/-- A transposed weight matrix: 128 input features by 128 output features. -/
abbrev SWeight : Shape := ⟨2, ![128, 128]⟩
/-- A bias row: one entry per output feature. -/
abbrev SBias : Shape := ⟨1, ![128]⟩

/-- Row `r` of `a` against column `c` of `wT`: ∑ₖ a[r,k] · wT[k,c]. -/
def rowCol (a : FVec Ideal SNodes .f32) (wT : FVec Ideal SWeight .f32) (r : Fin 100000) (c : Fin 128) : EReal :=
  ∑ k : Fin 128, a (ix2 r k) * wT (ix2 k c)

/-- The layer: both linear maps with their biases, added, then clamped below at the zero word's value. -/
def layer (x agg : FVec Ideal SNodes .f32) (wsT wnT : FVec Ideal SWeight .f32) (bs bn : FVec Ideal SBias .f32) :
    FVec Ideal SNodes .f32 :=
  fun i => max ((rowCol x wsT (i 0) (i 1) + bs (ix1 (i 1))) + (rowCol agg wnT (i 0) (i 1) + bn (ix1 (i 1))))
    (Ideal.ofBits .f32 0x00000000#32)

/-- Four terms added left to right are the same four added in two pairs. -/
theorem add_left_to_right (a b c d : EReal) : ((a + b) + c) + d = (a + b) + (c + d) :=
  add_assoc (a + b) c d

end Cert.Layer

end
-- ==== Proof.ReferenceLayer.lean ====
/-
  The reference program's result, read at an index, is the layer of `Layer.lean`:
  its two matrix products are plain sums over the 128 input features, its biases are rows broadcast over the
  nodes, it adds the two biased products as a pair of pairs and clamps at zero. The aggregated neighbour
  features and the two transposed weight matrices stay the stages that compute them: nothing here opens them.
-/
import proofs.«171180_j70918499992212_1_alg».proof.Proof.Gen.ReferenceIdeal.Read
import proofs.«171180_j70918499992212_1_alg».proof.Proof.Layer

noncomputable section

namespace Cert.ReferenceIdeal.AsLayer

open Cert.ReferenceIdeal Cert.ReferenceIdeal.Read Idealize.ShloMosaic Idealize.ShloMosaic.ValueIdx Cert.Layer

/-- The left factor of term `k` of either product at `i` sits in row `i 0`, column `k`. -/
theorem left_factor (i : S100000x128.Idx) (k : Fin 128) :
    lidx_main_v23 i k = ix2 (n0 := 100000) (n1 := 128) (i 0) k :=
  funext fun a => Fin.ext (by match a with | ⟨0, _⟩ => rfl | ⟨1, _⟩ => rfl)

/-- The right factor of term `k` sits in row `k`, column `i 1` of the transposed weights. -/
theorem right_factor (i : S100000x128.Idx) (k : Fin 128) :
    ridx_main_v23 i k = ix2 (n0 := 128) (n1 := 128) k (i 1) :=
  funext fun a => Fin.ext (by match a with | ⟨0, _⟩ => rfl | ⟨1, _⟩ => rfl)

theorem left_factor' (i : S100000x128.Idx) (k : Fin 128) :
    lidx_main_v28 i k = ix2 (n0 := 100000) (n1 := 128) (i 0) k :=
  funext fun a => Fin.ext (by match a with | ⟨0, _⟩ => rfl | ⟨1, _⟩ => rfl)

theorem right_factor' (i : S100000x128.Idx) (k : Fin 128) :
    ridx_main_v28 i k = ix2 (n0 := 128) (n1 := 128) k (i 1) :=
  funext fun a => Fin.ext (by match a with | ⟨0, _⟩ => rfl | ⟨1, _⟩ => rfl)

/-- A bias row broadcast over the nodes is read, at `i`, at output feature `i 1`. -/
theorem bias_entry (i : S100000x128.Idx) : idx_main_v24 (idx_main_v25 i) = ix1 (n := 128) (i 1) :=
  funext fun a => Fin.ext (by match a with | ⟨0, _⟩ => rfl)

theorem bias_entry' (i : S100000x128.Idx) : idx_main_v29 (idx_main_v30 i) = ix1 (n := 128) (i 1) :=
  funext fun a => Fin.ext (by match a with | ⟨0, _⟩ => rfl)

/-- The reference's result is the layer of the node features, the aggregated neighbour features as the reference
    computes them, the two transposed weight matrices and the two bias rows. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v33 (F := Ideal) x0 x1 x2 x3 x4 x5
      = layer x0 (val_main_v21 (F := Ideal) x0 x1) (val_main_v22 (F := Ideal) x2) (val_main_v27 (F := Ideal) x4) x3 x5 := by
  funext i
  rw [val_main_v33_apply, val_main_v32_apply, val_main_v26_apply, val_main_v31_apply, val_main_v23_apply, val_main_v28_apply,
    val_main_v25_apply, val_main_v24_apply, val_main_v30_apply, val_main_v29_apply, val_main_call1_v0_apply,
    val_main_call1_cst_apply]
  simp only [left_factor, right_factor, left_factor', right_factor', bias_entry, bias_entry', Ideal.addf_def,
    Ideal.maximumf_def, Ideal.ofBits_def]
  rfl

end Cert.ReferenceIdeal.AsLayer

end
-- ==== Proof.BlockValue.lean ====
/-
  What the kernel body computes from one block, read at row `p` of the block and output feature `q`.

  The body holds a block of 5000 rows of the node features and the same rows of the aggregated neighbour
  features, both transposed weight matrices whole and both bias rows. Changing the float format is the identity
  on the extended reals; each matrix product into a zero accumulator is the plain sum over the 128 input
  features; a bias row recast as a 1×128 matrix and broadcast down the rows is the row's entry at `q`. So the
  stored value at (p, q) is the four terms added left to right, clamped at zero.
-/
import proofs.«171180_j70918499992212_1_alg».proof.Proof.Gen.KernelIdeal.Skeleton
import proofs.«171180_j70918499992212_1_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.Layer

/-- The product's record: rows by input features, times input features by output features. -/
abbrev blockDot := dot_S5000x128_S128x128_S5000x128_1_0_0_1_n_n

theorem lhs_row (i : S5000x128.Idx) (q : blockDot.contr.Idx) : (blockDot.lhsIdx i q 0).val = (i 0).val := by
  unfold DotDims.lhsIdx
  rw [dif_neg (show ¬(0 : Fin S5000x128.rank) ∈ blockDot.lhsBatch by decide),
    dif_pos (show (0 : Fin S5000x128.rank) ∈ blockDot.lhsNonContracting by decide)]
  rfl

theorem lhs_col (i : S5000x128.Idx) (q : blockDot.contr.Idx) : (blockDot.lhsIdx i q 1).val = (q ⟨0, by decide⟩).val :=
  blockDot.lhsIdx_val_of_single rfl i q

theorem rhs_row (i : S5000x128.Idx) (q : blockDot.contr.Idx) : (blockDot.rhsIdx i q 0).val = (q ⟨0, by decide⟩).val :=
  blockDot.rhsIdx_val_of_single rfl i q

theorem rhs_col (i : S5000x128.Idx) (q : blockDot.contr.Idx) : (blockDot.rhsIdx i q 1).val = (i 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- A block times a transposed weight matrix, accumulated onto zero, at (p, q): ∑ₖ a[p,k] · w[k,q]. -/
theorem product_apply (a : FVec Ideal S5000x128 .bf16) (w : FVec Ideal S128x128 .bf16) (p : Fin 5000) (q : Fin 128) :
    matmul (F := Ideal) blockDot none a w (constant (F := Ideal) S5000x128 .f32 0x00000000#32) (ix2 p q)
      = ∑ k : Fin 128, a (ix2 p k) * w (ix2 k q) := by
  refine (Ideal.matmul_constant_zero_apply blockDot none a w (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er]

/-- A bias row recast as one matrix row and broadcast down the block's rows, at (p, q): the row's entry `q`. -/
theorem bias_apply (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- The body's stored value at row `p` of the block, output feature `q`. -/
theorem stored_apply (v0 v2 : Vec Ideal S5000x128 .f32) (v5 v8 : Vec Ideal S128x128 .f32) (v13 v18 : Vec Ideal S128 .f32)
    (p : Fin 5000) (q : Fin 128) :
    k0_pay1 (F := Ideal) v0 v2 v5 v8 v13 v18 (ix2 p q)
      = max ((((∑ k : Fin 128, v0 (ix2 p k) * v5 (ix2 k q)) + v13 (ix1 q)) + ∑ k : Fin 128, v2 (ix2 p k) * v8 (ix2 k q))
          + v18 (ix1 q)) (Ideal.ofBits .f32 0x00000000#32) := by
  unfold k0_pay1
  simp only [shapeCast_self]
  show max (((matmul (F := Ideal) blockDot none _ _ _ (ix2 p q) + broadcastTo S5000x128 _ _ (ix2 p q))
      + matmul (F := Ideal) blockDot none _ _ _ (ix2 p q)) + broadcastTo S5000x128 _ _ (ix2 p q)) _ = _
  rw [product_apply, product_apply, bias_apply, bias_apply]
  rfl

/-- When the block's row `p` is row `r` of the node arrays, and the weights and biases it holds are the whole
    arrays', the stored value at (p, q) is the layer at (r, q): the left-to-right sum regrouped into two pairs. -/
theorem block_layer (X A : FVec Ideal SNodes .f32) (WsT WnT : FVec Ideal SWeight .f32) (bs bn : FVec Ideal SBias .f32)
    (v0 v2 : Vec Ideal S5000x128 .f32) (v5 v8 : Vec Ideal S128x128 .f32) (v13 v18 : Vec Ideal S128 .f32)
    (r : Fin 100000) (p : Fin 5000) (q : Fin 128)
    (h0 : ∀ k : Fin 128, v0 (ix2 p k) = X (ix2 r k)) (h2 : ∀ k : Fin 128, v2 (ix2 p k) = A (ix2 r k))
    (h5 : ∀ k : Fin 128, v5 (ix2 k q) = WsT (ix2 k q)) (h8 : ∀ k : Fin 128, v8 (ix2 k q) = WnT (ix2 k q))
    (h13 : v13 (ix1 q) = bs (ix1 q)) (h18 : v18 (ix1 q) = bn (ix1 q)) :
    k0_pay1 (F := Ideal) v0 v2 v5 v8 v13 v18 (ix2 p q) = layer X A WsT WnT bs bn (ix2 r q) := by
  rw [stored_apply, add_left_to_right]
  simp only [h0, h2, h5, h8, h13, h18]
  rfl

end Cert.KernelIdeal.BlockValue

end
-- ==== Proof.EntryArrays.lean ====
/-
  The arrays the kernel's region finds when it is entered.

  Before the region the program computes, on the host, the aggregated neighbour features: the edge list's two
  rows are the edges' source and target nodes; a negative source counts from the end (100000 is added to it);
  the source nodes' feature rows are gathered along the edges and summed into their target nodes; the in-degree
  of a node is the sum of ones over its incoming edges; and each node's summed row is divided by its in-degree
  clamped below at one. It also transposes the two weight matrices. The reference computes the same three arrays
  by the same operations, so each stage here is matched with the reference's stage of the same arguments, one
  operation at a time; the gather and the two sums over 1600000 edges are carried as they are and never opened.
-/
import proofs.«171180_j70918499992212_1_alg».proof.Proof.Gen.KernelIdeal.Frame
import proofs.«171180_j70918499992212_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem

/-! ## The host's stages, as functions of the node features and the edge list -/

section Stages

variable {F : FTy → Type} [FloatOps F]

/-- The edges' source nodes: row 0 of the edge list. -/
def sources (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The edges' target nodes: row 1 of the edge list. -/
def targets (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The sources with a negative number counted from the end. -/
def wrappedSources (e : (⟨S2x1600000, .i32⟩ : BufTy).Contents (Elt F)) : (⟨S1600000, .i32⟩ : BufTy).Contents (Elt F) :=
  select (cmpi .slt (sources (F := F) e) (broadcastInDim S1600000 ![] bcast_S_S1600000 (constantI S_ 32 0#32)))
    (addi (sources (F := F) e) (broadcastInDim S1600000 ![] bcast_S_S1600000 (constantI S_ 32 100000#32))) (sources (F := F) e)

/-- Per edge, its source node's feature row. -/
def gathered (x : (⟨S100000x128, .f32⟩ : BufTy).Contents (Elt F)) (e : (⟨S2x1600000, .i32⟩ : BufTy).Contents (Elt F)) :
    (⟨S1600000x128, .f32⟩ : BufTy).Contents (Elt F) :=
  Host.gather gather_S100000x128_S1600000x1_S1600000x128_1_0_n_n_0_1_1128 x
    (broadcastInDim S1600000x1 ![0] bcast_S1600000_S1600000x1_0 (wrappedSources (F := F) e))

/-- Per node, the sum of the rows gathered along its incoming edges. -/
def summed (x : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (targets (F := F) e)) (gathered (F := F) x e)

/-- Per node, the number of its incoming edges: ones summed along them. -/
def inDegree (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (targets (F := F) e))
    (broadcastInDim S1600000 ![] bcast_S_S1600000 (constant S_ .f32 0x3F800000#32))

/-- The divisor: the in-degree clamped below at one, the same for every feature of a node. -/
def divisor (e : (⟨S2x1600000, .i32⟩ : BufTy).Contents (Elt F)) : (⟨S100000x128, .f32⟩ : BufTy).Contents (Elt F) :=
  broadcastInDim S100000x128 ![0, 1] bcast_S100000x1_S100000x128_0_1
    (broadcastInDim S100000x1 ![0] bcast_S100000_S100000x1_0
      (maximumf (broadcastInDim S100000 ![] bcast_S_S100000 (id (constant S_ .f32 0x3F800000#32))) (inDegree (F := F) e)))

/-- The aggregated neighbour features: the mean of the source rows over a node's incoming edges. -/
def meanNeighbours (x : (⟨S100000x128, .f32⟩ : BufTy).Contents (Elt F)) (e : (⟨S2x1600000, .i32⟩ : BufTy).Contents (Elt F)) :
    (⟨S100000x128, .f32⟩ : BufTy).Contents (Elt F) :=
  Host.divf (summed (F := F) x e) (divisor (F := F) e)

end Stages

/-! ## Each stage is the reference's -/

section Match

open Cert.ReferenceIdeal.Read

variable (x : (⟨S100000x128, .f32⟩ : BufTy).Contents (Elt Ideal)) (e : (⟨S2x1600000, .i32⟩ : BufTy).Contents (Elt Ideal))

theorem sources_eq : sources (F := Ideal) e = val_main_v1 (F := Ideal) e := by
  unfold sources val_main_v1 val_main_v0; rfl

theorem targets_eq : targets (F := Ideal) e = val_main_v3 (F := Ideal) e := by
  unfold targets val_main_v3 val_main_v2; rfl

theorem wrappedSources_eq : wrappedSources (F := Ideal) e = val_main_v8 (F := Ideal) e := by
  unfold wrappedSources val_main_v8 val_main_v5 val_main_v7 val_main_v4 val_main_v6 val_main_c val_main_c_0
  rw [sources_eq]

theorem gathered_eq : gathered (F := Ideal) x e = val_main_v10 (F := Ideal) x e := by
  unfold gathered val_main_v10 val_main_v9
  rw [wrappedSources_eq]; rfl

theorem summed_eq : summed (F := Ideal) x e = val_main_v13 (F := Ideal) x e := by
  unfold summed val_main_v13 val_main_v11 val_main_v12 val_main_cst
  rw [targets_eq, gathered_eq]; rfl

theorem inDegree_eq : inDegree (F := Ideal) e = val_main_v17 (F := Ideal) e := by
  unfold inDegree val_main_v17 val_main_v15 val_main_v16 val_main_v14 val_main_cst_2 val_main_cst_1
  rw [targets_eq]; rfl

theorem divisor_eq : divisor (F := Ideal) e = val_main_v20 (F := Ideal) e := by
  unfold divisor val_main_v20 val_main_v19 val_main_v18 val_main_call0_v1 val_main_call0_v0 val_main_cst_3
  rw [inDegree_eq]

theorem meanNeighbours_eq : meanNeighbours (F := Ideal) x e = val_main_v21 (F := Ideal) x e := by
  unfold meanNeighbours val_main_v21
  rw [summed_eq, divisor_eq]

end Match

/-! ## What the region finds -/

section FoundAny

variable {F : FTy → Type} [FloatOps F]
variable (m : (ℓ : Loc nD τ sig) → Buf (Elt F) ℓ)

set_option maxHeartbeats 1000000 in
/-- The aggregated neighbour features are the host's stages of the node features and the edge list as launched:
    a composition of the host's operations, whatever a float is read as. -/
theorem aggregated_stages (c : Dev nD) :
    (V m c main_v21 : (⟨S100000x128, .f32⟩ : BufTy).Contents (Elt F))
      = meanNeighbours (F := F) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp
  unfold meanNeighbours summed gathered divisor inDegree wrappedSources sources targets
  rfl

end FoundAny

section Found

variable (m : (ℓ : Loc nD τ sig) → Buf (Elt Ideal) ℓ)

/-- The first weight matrix, transposed. -/
theorem self_weights (c : Dev nD) :
    (V m c main_v22 : S128x128.Idx → EReal)
      = Cert.ReferenceIdeal.Read.val_main_v22 (F := Ideal) (m ((c : Thread nD τ).loc main_arg2)) := by
  dsimp only [V]
  simp only [hostOps0, hostOps0_1, hostOps0_2, List.flatten_cons, List.flatten_nil, List.append_nil, List.cons_append,
    List.nil_append]
  after_results
  rfl

/-- The second weight matrix, transposed. -/
theorem neighbour_weights (c : Dev nD) :
    (V m c main_v23 : S128x128.Idx → EReal)
      = Cert.ReferenceIdeal.Read.val_main_v27 (F := Ideal) (m ((c : Thread nD τ).loc main_arg4)) := by
  dsimp only [V]
  simp only [hostOps0, hostOps0_1, hostOps0_2, List.flatten_cons, List.flatten_nil, List.append_nil, List.cons_append,
    List.nil_append]
  after_results
  rfl

/-- The aggregated neighbour features are the reference's stage of the same arguments. -/
theorem aggregated (c : Dev nD) :
    (V m c main_v21 : S100000x128.Idx → EReal)
      = Cert.ReferenceIdeal.Read.val_main_v21 (F := Ideal) (m ((c : Thread nD τ).loc main_arg0))
          (m ((c : Thread nD τ).loc main_arg1)) :=
  (aggregated_stages (F := Ideal) m c).trans (meanNeighbours_eq _ _)

end Found

end Cert.KernelIdeal.Entry

end
-- ==== Proof.Blocks.lean ====
/-
  The kernel's blocks, for any reading of the floats.

  The grid has 20 points; point `t` holds rows 5000·t … 5000·t + 4999 of the node features and of the aggregated
  neighbour features, the two transposed weight matrices and the two bias rows whole, and writes back rows
  5000·t … 5000·t + 4999 of the result. So row `p` of a block is row 5000·t + p of its array, what point `t`
  writes back is the body's stored value of the six blocks it holds, and every row `r` of the result lies in
  the block of point r / 5000. None of this depends on what a float is.
-/
import proofs.«171180_j70918499992212_1_alg».proof.Proof.Gen.KernelIdeal.Value
import Idealize.ShloMosaic.Lib.ValueIdx
import Idealize.ShloMosaic.Lib.Pipeline.Value
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

theorem origin2 : (![0, 0] : Fin 2 → Nat) = fun _ => 0 := funext fun a => by fin_cases a <;> rfl
theorem origin1 : (![0] : Fin 1 → Nat) = fun _ => 0 := funext fun a => by fin_cases a <;> rfl

/-- Which block each window holds at point `t`, decided over the 20 points: the two node arrays and the result
    move down with the point, the weights and the biases stay. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 20 :=
  Nat.lt_of_lt_of_eq (show t.val < grid0.N from t.isLt) N_0

/-! ## A block's entry is the array's -/

/-- Row `p` of point `t`'s block of the node features is row `r = 5000·t + p` of the array. -/
theorem features_block (c : Dev nD) (t : Fin cfg0.N) (p : Fin 5000) (k : Fin 128) (r : Fin 100000)
    (hr : r.val = 5000 * t.val + p.val) :
    (iblk m c 0 t : Vec F S5000x128 .f32) (ix2 p k)
      = (V m c main_arg0 : (⟨S100000x128, .f32⟩ : BufTy).Contents (Elt F)) (ix2 r k) := by
  obtain ⟨e0, e1, -⟩ := block_indices t
  unfold iblk
  rw [View.read_apply]
  show V m c main_arg0 _ = V m c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The same rows of the aggregated neighbour features. -/
theorem aggregated_block (c : Dev nD) (t : Fin cfg0.N) (p : Fin 5000) (k : Fin 128) (r : Fin 100000)
    (hr : r.val = 5000 * t.val + p.val) :
    (iblk m c 1 t : Vec F S5000x128 .f32) (ix2 p k)
      = (V m c main_v21 : (⟨S100000x128, .f32⟩ : BufTy).Contents (Elt F)) (ix2 r k) := by
  obtain ⟨-, -, e0, e1, -⟩ := block_indices t
  unfold iblk
  rw [View.read_apply]
  show V m c main_v21 _ = V m c main_v21 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Every point holds the first transposed weight matrix whole. -/
theorem self_weights_block (c : Dev nD) (t : Fin cfg0.N) (k q : Fin 128) :
    (iblk m c 2 t : Vec F S128x128 .f32) (ix2 k q)
      = (V m c main_v22 : (⟨S128x128, .f32⟩ : BufTy).Contents (Elt F)) (ix2 k q) := by
  obtain ⟨-, -, -, -, e0, e1, -⟩ := block_indices t
  unfold iblk
  rw [View.read_apply]
  show V m c main_v22 _ = V m c main_v22 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- And the second. -/
theorem neighbour_weights_block (c : Dev nD) (t : Fin cfg0.N) (k q : Fin 128) :
    (iblk m c 3 t : Vec F S128x128 .f32) (ix2 k q)
      = (V m c main_v23 : (⟨S128x128, .f32⟩ : BufTy).Contents (Elt F)) (ix2 k q) := by
  obtain ⟨-, -, -, -, -, -, e0, e1, -⟩ := block_indices t
  unfold iblk
  rw [View.read_apply]
  show V m c main_v23 _ = V m c main_v23 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- Every point holds the first bias row whole. -/
theorem self_bias_block (c : Dev nD) (t : Fin cfg0.N) (q : Fin 128) :
    (iblk m c 4 t : Vec F S128 .f32) (ix1 q) = (V m c main_arg3 : (⟨S128, .f32⟩ : BufTy).Contents (Elt F)) (ix1 q) := by
  obtain ⟨-, -, -, -, -, -, -, -, e0, -⟩ := block_indices t
  unfold iblk
  rw [View.read_apply]
  show V m c main_arg3 _ = V m c main_arg3 _
  congr 1
  funext a
  apply Fin.ext
  match a with
  | ⟨0, _⟩ => show win0_4.index t (0 : Fin 1) * 128 + 1 * q.val = q.val; rw [e0]; omega

/-- And the second. -/
theorem neighbour_bias_block (c : Dev nD) (t : Fin cfg0.N) (q : Fin 128) :
    (iblk m c 5 t : Vec F S128 .f32) (ix1 q) = (V m c main_arg5 : (⟨S128, .f32⟩ : BufTy).Contents (Elt F)) (ix1 q) := by
  obtain ⟨-, -, -, -, -, -, -, -, -, e0, -⟩ := block_indices t
  unfold iblk
  rw [View.read_apply]
  show V m c main_arg5 _ = V m c main_arg5 _
  congr 1
  funext a
  apply Fin.ext
  match a with
  | ⟨0, _⟩ => show win0_5.index t (0 : Fin 1) * 128 + 1 * q.val = q.val; rw [e0]; omega

/-- Row `p`, column `q` of the block point `t` writes back is row `r = 5000·t + p`, column `q` of the result. -/
theorem result_index (t : Fin cfg0.N) (p : Fin 5000) (q : Fin 128) (r : Fin 100000) (hr : r.val = 5000 * t.val + p.val) :
    ((cfg0.win 6).blk t).view.emb (ix2 p q) = ix2 r q := by
  obtain ⟨-, -, -, -, -, -, -, -, -, -, e0, e1⟩ := block_indices t
  funext a
  apply Fin.ext
  match a with
  | ⟨0, _⟩ => show win0_6.index t (0 : Fin 2) * 5000 + 1 * p.val = r.val; rw [e0, hr]; omega
  | ⟨1, _⟩ => show win0_6.index t (1 : Fin 2) * 128 + 1 * q.val = q.val; rw [e1]; omega

/-! ## What a point writes back -/

/-- Point `t` writes back the body's stored value of the six blocks it holds: the one store covers the whole
    staging buffer, and the whole buffer is written back. -/
theorem flushed_stored (c : Dev nD) (t : Fin cfg0.N) :
    (dats m 0 c).flushed 6 t
      = k0_pay1 (iblk m c 0 t) (iblk m c 1 t) (iblk m c 2 t) (iblk m c 3 t) (iblk m c 4 t) (iblk m c 5 t) := by
  rw [Value.flushed6]
  unfold out0_6
  rw [View.canon_unit_zero origin2]
  simp only [View.ld_unit_zero (S := S5000x128) origin2, View.ld_unit_zero (S := S128x128) origin2,
    View.ld_unit_zero (S := S128) origin1]
  rfl

/-! ## The blocks cover the result -/

/-- An index of the result lies in point `t`'s block when each coordinate lies in the block's range. -/
theorem mem_block (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v24).slice (win0_6.rect t)).set ↔ _
  rw [View.set_slice_whole, Rect.mem_set_unit]
  exact Iff.rfl

/-- Row `r` of the result lies in the block of point r / 5000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, htv⟩ : ∃ t : Fin cfg0.N, t.val = (i 0).val / 5000 :=
    ⟨⟨(i 0).val / 5000, by rw [show cfg0.N = 20 from N_0]; omega⟩, rfl⟩
  obtain ⟨-, -, -, -, -, -, -, -, -, -, e0, e1⟩ := block_indices t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    rw [e0, htv]; omega
  | ⟨1, _⟩ =>
    show win0_6.index t (1 : Fin 2) * 128 ≤ (i 1).val ∧ (i 1).val < win0_6.index t (1 : Fin 2) * 128 + 128
    rw [e1]; omega

end Cert.KernelIdeal.Blocks

end
-- ==== Proof.KernelLayer.lean ====
/-
  The kernel's result array is the layer of `Layer.lean`, read on the extended reals.

  What point `t` writes back is, entry by entry, the layer of the arrays the region finds: row `p` of its blocks
  is row 5000·t + p of the node arrays, it holds the weights and biases whole, and its left-to-right sum of the
  four terms is the layer's sum of two pairs. The blocks cover the result, so the result array ends holding the
  layer everywhere; and the arrays the region finds are the arguments as launched, the aggregated neighbour
  features and the two transposed weight matrices, each the reference's stage of the same arguments.
-/
import proofs.«171180_j70918499992212_1_alg».proof.Proof.Gen.KernelIdeal.Value
import proofs.«171180_j70918499992212_1_alg».proof.Proof.Layer
import proofs.«171180_j70918499992212_1_alg».proof.Proof.BlockValue
import proofs.«171180_j70918499992212_1_alg».proof.Proof.EntryArrays
import proofs.«171180_j70918499992212_1_alg».proof.Proof.Blocks
import Idealize.ShloMosaic.Lib.Pipeline.Value

noncomputable section

namespace Cert.KernelIdeal.AsLayer

open Cert.KernelIdeal Cert.KernelIdeal.Gen Idealize.ShloMosaic Idealize.ShloMosaic.TcCoe Idealize.SL.Sem
open Idealize.ShloMosaic.ValueIdx Cert.Layer
open Idealize.ShloMosaic.Pipeline (Dat)

variable (m : (ℓ : Loc nD τ sig) → Buf (Elt Ideal) ℓ) (ρ : Dev nD → PrngReg)

/-- The layer of the arrays the region finds. -/
abbrev entryLayer (c : Dev nD) : S100000x128.Idx → EReal :=
  layer (V m c main_arg0) (V m c main_v21) (V m c main_v22) (V m c main_v23) (V m c main_arg3) (V m c main_arg5)

/-- Point `t` writes back block `t` of the layer of the arrays the region finds. -/
theorem flushed_eq (c : Dev nD) (t : Fin cfg0.N) :
    (dats m 0 c).flushed 6 t = ((cfg0.win 6).blk t).view.read (Elt Ideal) (entryLayer m c) := by
  rw [Blocks.flushed_stored]
  have ht := Blocks.point_lt t
  refine funext fun (j : S5000x128.Idx) => ?_
  obtain ⟨p, q, rfl⟩ : ∃ (p : Fin 5000) (q : Fin 128), j = ix2 p q := ⟨j 0, j 1, eq_ix2 j⟩
  obtain ⟨r, hr⟩ : ∃ r : Fin 100000, r.val = 5000 * t.val + p.val := ⟨⟨5000 * t.val + p.val, by omega⟩, rfl⟩
  rw [View.read_apply, Blocks.result_index t p q r hr]
  exact BlockValue.block_layer (V m c main_arg0) (V m c main_v21) (V m c main_v22) (V m c main_v23) (V m c main_arg3)
    (V m c main_arg5) (iblk m c 0 t) (iblk m c 1 t) (iblk m c 2 t) (iblk m c 3 t) (iblk m c 4 t) (iblk m c 5 t) r p q
    (fun k => Blocks.features_block m c t p k r hr) (fun k => Blocks.aggregated_block m c t p k r hr)
    (fun k => Blocks.self_weights_block m c t k q) (fun k => Blocks.neighbour_weights_block m c t k q)
    (Blocks.self_bias_block m c t q) (Blocks.neighbour_bias_block m c t q)

/-- The blocks cover the result, so it ends holding the layer of the arrays the region finds. -/
theorem final (c : Dev nD) : (dats m 0 c).arrAt 6 cfg0.N = entryLayer m c :=
  (dats m 0 c).arrAt_eq_of_cover 6 (entryLayer m c) (fun t _ => flushed_eq m c t) Blocks.covered

/-- The arrays the region finds are the arguments as launched and the host's three arrays, each the reference's
    stage of the same arguments. -/
theorem entryLayer_eq (c : Dev nD) :
    entryLayer m c = layer (m ((c : Thread nD τ).loc main_arg0))
      (Cert.ReferenceIdeal.Read.val_main_v21 (F := Ideal) (m ((c : Thread nD τ).loc main_arg0)) (m ((c : Thread nD τ).loc main_arg1)))
      (Cert.ReferenceIdeal.Read.val_main_v22 (F := Ideal) (m ((c : Thread nD τ).loc main_arg2)))
      (Cert.ReferenceIdeal.Read.val_main_v27 (F := Ideal) (m ((c : Thread nD τ).loc main_arg4)))
      (m ((c : Thread nD τ).loc main_arg3)) (m ((c : Thread nD τ).loc main_arg5)) := by
  show layer (V m c main_arg0) (V m c main_v21) (V m c main_v22) (V m c main_v23) (V m c main_arg3) (V m c main_arg5) = _
  rw [Entry.aggregated, Entry.self_weights, Entry.neighbour_weights, V_main_arg0, V_main_arg3, V_main_arg5]

/-- The kernel's run, read: the result array at the layer of the launch contents, the arguments unchanged. -/
theorem run : θ_run defs (onTc (τ := τ) (main (F := Ideal))) ⟨m, fun _ => 0, ρ⟩ fun r => ∀ c : Dev nD,
      r.2.mem ((c : Thread nD τ).loc main_v24) = layer (m ((c : Thread nD τ).loc main_arg0))
        (Cert.ReferenceIdeal.Read.val_main_v21 (F := Ideal) (m ((c : Thread nD τ).loc main_arg0)) (m ((c : Thread nD τ).loc main_arg1)))
        (Cert.ReferenceIdeal.Read.val_main_v22 (F := Ideal) (m ((c : Thread nD τ).loc main_arg2)))
        (Cert.ReferenceIdeal.Read.val_main_v27 (F := Ideal) (m ((c : Thread nD τ).loc main_arg4)))
        (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (entryLayer_eq m c)), (h c).2⟩)
    (Value.run_blocks m ρ)

end Cert.KernelIdeal.AsLayer

end
-- ==== Proof.lean ====
/-
  One message-passing layer over a graph of 100000 nodes and 1600000 edges, 128 features per node: the kernel
  against its plain reference, on the extended reals.

  Both programs first compute, by the same host operations on the same arguments, the aggregated neighbour
  features (the mean of the source nodes' rows over each node's incoming edges) and the two weight matrices
  transposed. The reference then forms (x·Wsᵀ + bs) + (agg·Wnᵀ + bn) over the whole arrays and clamps it at
  zero. The kernel does the same 5000 rows at a time over a grid of 20 points, adding the four terms left to
  right, ((x·Wsᵀ + bs) + agg·Wnᵀ) + bn, its matrix products into a zero accumulator and with operands changed to
  a narrower float format, which is the identity on the extended reals.

  So both results are one function of the arguments, `Cert.Layer.layer` (Proof/Layer.lean): a matrix product at
  an entry is the plain sum over the 128 input features on both sides, and the two groupings of the four terms
  are joined by associativity of addition, which holds at every extended real; no entry need be finite, and the
  precondition is never opened.

  Proof/ReferenceLayer.lean reads the reference's result at an index and finds the layer. Proof/BlockValue.lean
  reads the kernel body's stored value at an entry of a block; Proof/Blocks.lean says which rows of the arrays
  each point's blocks are and that the written-back blocks cover the result; Proof/EntryArrays.lean says that the
  three host-computed arrays the kernel's region finds are the reference's stages of the same arguments;
  Proof/KernelLayer.lean puts these together: the kernel's result array is the layer of the launch contents.
  The three frames are the generated ones (the reference's: its generated run with the result dropped); the
  idealization rewrote no operation, so there is nothing to preserve.
-/
import proofs.«171180_j70918499992212_1_alg».proof.Defs
import proofs.«171180_j70918499992212_1_alg».proof.Proof.Gen.Kernel
import proofs.«171180_j70918499992212_1_alg».proof.Proof.Gen.Kernel.Skeleton
import proofs.«171180_j70918499992212_1_alg».proof.Proof.Gen.Kernel.Launch
import proofs.«171180_j70918499992212_1_alg».proof.Proof.Gen.Kernel.Points
import proofs.«171180_j70918499992212_1_alg».proof.Proof.Gen.Kernel.Frame
import proofs.«171180_j70918499992212_1_alg».proof.Proof.Gen.KernelIdeal
import proofs.«171180_j70918499992212_1_alg».proof.Proof.Gen.KernelIdeal.Skeleton
import proofs.«171180_j70918499992212_1_alg».proof.Proof.Gen.KernelIdeal.Launch
import proofs.«171180_j70918499992212_1_alg».proof.Proof.Gen.KernelIdeal.Points
import proofs.«171180_j70918499992212_1_alg».proof.Proof.Gen.KernelIdeal.Frame
import proofs.«171180_j70918499992212_1_alg».proof.Proof.Gen.ReferenceIdeal
import proofs.«171180_j70918499992212_1_alg».proof.Proof.Gen.Pre_finite_inputs
import proofs.«171180_j70918499992212_1_alg».proof.Proof.Gen.KernelIdeal.Value
import proofs.«171180_j70918499992212_1_alg».proof.Proof.Gen.ReferenceIdeal.Run
import proofs.«171180_j70918499992212_1_alg».proof.Proof.Gen.ReferenceIdeal.Read
import proofs.«171180_j70918499992212_1_alg».proof.Proof.ReferenceLayer
import proofs.«171180_j70918499992212_1_alg».proof.Proof.KernelLayer
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- And the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array and the reference's both end holding the
    layer of those arguments. -/
theorem algebraic : Cert.algebraic_KernelIdeal_ReferenceIdeal := by
  intro m ρ m' ρ' _ hagree
  refine ⟨_, Cert.KernelIdeal.AsLayer.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  refine (Cert.ReferenceIdeal.Read.val_main_v33_eq _ _ _ _ _ _).trans ?_
  rw [Cert.ReferenceIdeal.AsLayer.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
